-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384 : Shape := ⟨1, ![16384]⟩
abbrev S512x256 : Shape := ⟨2, ![512, 256]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384 : S_.BroadcastsInDim S16384 (![] : Fin 0 → Fin S16384.rank)
  reducesTo_S16384_S_d0 : S16384.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S16384x1 .f32) (main_arg1 : FVec F S16384 .f32) (main_arg2 : FVec F S16384 .f32) (main_arg3 : FVec F S512x256 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S16384x1 : Shape := ⟨2, ![16384, 1]⟩
abbrev S16384 : Shape := ⟨1, ![16384]⟩
abbrev S512x256 : Shape := ⟨2, ![512, 256]⟩
abbrev S1x16384 : Shape := ⟨2, ![1, 16384]⟩
abbrev S1x1 : Shape := ⟨2, ![1, 1]⟩
abbrev S256x1 : Shape := ⟨2, ![256, 1]⟩
abbrev S256x16384 : Shape := ⟨2, ![256, 16384]⟩
abbrev S256 : Shape := ⟨1, ![256]⟩
abbrev S1 : Shape := ⟨1, ![1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S512x256, .f32⟩
  | .hbm, ⟨4, _⟩ => ⟨S1x16384, .f32⟩
  | .hbm, ⟨5, _⟩ => ⟨S1x16384, .f32⟩
  | .hbm, ⟨6, _⟩ => ⟨S1x16384, .f32⟩
  | .hbm, ⟨7, _⟩ => ⟨S16384x1, .f32⟩
  | .hbm, ⟨8, _⟩ => ⟨S16384x1, .f32⟩
  | .hbm, ⟨9, _⟩ => ⟨S1x1, .f32⟩
  | .hbm, ⟨10, _⟩ => ⟨S_, .f32⟩
  | .hbm, ⟨11, _⟩ => ⟨S512x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x16384, .f32⟩
  | .local _ .vmem, ⟨1, _⟩ => ⟨S1x16384, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x1, .f32⟩
  | .local _ .vmem, ⟨9, _⟩ => ⟨S1x1, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v31 : BitVec 1 := Scalar.cmpi .eq arg0 c63_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S16384x1_S1x16384 : S16384x1.ShapeCasts S1x16384
  shapeCasts_S16384_S1x16384 : S16384.ShapeCasts S1x16384
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S1x16384_S256x16384 : S1x16384.Broadcasts S256x16384
  broadcasts_S256x1_S256x16384 : S256x1.Broadcasts S256x16384
  reduces_S256x16384_S256 : S256x16384.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  reducesTo_S512x256_S_d0_1 : S512x256.ReducesTo [0, 1] S_
  h_S_ : 0 < S_.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x16384.size a
  hwx0_0 : ∀ i : grid0.Coords, EltTy.bits .f32 = 32 ∨ (Rect.block (s := S1x16384) S1x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S16384x1.size a
  hwx0_4 : ∀ i : grid0.Coords, EltTy.bits .f32 = 32 ∨ (Rect.block (s := S16384x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v2) S1x16384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x1 : Shape := ⟨2, ![16384, 1]⟩
abbrev S16384 : Shape := ⟨1, ![16384]⟩
abbrev S512x256 : Shape := ⟨2, ![512, 256]⟩
abbrev S1x16384 : Shape := ⟨2, ![1, 16384]⟩
abbrev S16384x16384 : Shape := ⟨2, ![16384, 16384]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384, .f32⟩
  | .hbm, ⟨3, _⟩ => ⟨S512x256, .f32⟩
  | .hbm, ⟨4, _⟩ => ⟨S16384, .f32⟩
  | .hbm, ⟨5, _⟩ => ⟨S1x16384, .f32⟩
  | .hbm, ⟨6, _⟩ => ⟨S16384x1, .f32⟩
  | .hbm, ⟨7, _⟩ => ⟨S16384x16384, .f32⟩
  | .hbm, ⟨8, _⟩ => ⟨S16384x16384, .f32⟩
  | .hbm, ⟨9, _⟩ => ⟨S16384x16384, .i1⟩
  | .hbm, ⟨10, _⟩ => ⟨S16384x16384, .f32⟩
  | .hbm, ⟨11, _⟩ => ⟨S16384, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  shapeCasts_S16384x1_S16384 : S16384x1.ShapeCasts S16384
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  reducesTo_S16384x16384_S16384_d1 : S16384x16384.ReducesTo [1] S16384
  h_S_ : 0 < S_.numel
  reducesTo_S16384_S_d0 : S16384.ReducesTo [0] S_
  reducesTo_S512x256_S_d0_1 : S512x256.ReducesTo [0, 1] S_

variable [Facts₀]

class Facts : Prop extends Facts₀ where

variable [Facts]
-- ==== Proof.Pieces.lean ====
/-
  What the kernel body leaves behind at a tile, case by case, as values of the body's three stores.

  The body runs in one of three ways. At the first tile it resets the 1×1 accumulator, reads it back and adds the
  tile's sum; at a middle tile it adds the tile's sum to what the tile before left; at the last tile it does the
  same and then stores the accumulator times the scale into the output's buffer. Each store covers its whole
  1×1 buffer, so what a buffer holds afterwards is the last store's value, and every load reads a whole buffer.
  Nothing here depends on the arithmetic: the statements hold for any float instance.
-/
import proofs.«161742_j75368086110967_2_alg».proof.Proof.Gen.KernelIdeal.Frame
import Idealize.ShloMosaic.Lib.Pipeline.Value
import Idealize.ShloMosaic.Lib.Tactic

noncomputable section

namespace Cert.Cox.Kernel

open Idealize.ShloMosaic Idealize.ShloMosaic.TcCoe Idealize.SL.Sem Cert.KernelIdeal Cert.KernelIdeal.Gen
open Idealize.ShloMosaic.Pipeline (Dat)

variable {F : FTy → Type} [FloatOps F]

theorem hz : (![0, 0] : Fin 2 → Nat) = fun _ => 0 := funext fun a => by fin_cases a <;> rfl

/-- At a middle tile the accumulator ends at the accumulating store's value over what the tile before left. -/
theorem sout_B (c : Dev nD) (i : grid0.Coords) (a1 : Memref sig .tc .vmem S1x16384 .f32) (h1 : a1.IsWhole) (a2 : Memref sig .tc .vmem S1x16384 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i)
    (x0 x1 : Vec F S1x16384 .f32) (x2 x3 x4 : Vec F S256x1 .f32) (xs0 : Vec F S1x1 .f32) :
    sout0_B_0 c i a1 h1 a2 h2 a3 h3 a4 h4 a5 h5 a6 h6 a7 h7 hc0 hc1 x0 x1 x2 x3 x4 xs0 = k0_pay2 x0 x1 x2 x3 x4 xs0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  rw [View.canon_unit_zero hz]
  simp only [View.readAt_eq_ld, h1.read_unread, h2.read_unread, h3.read_unread, h4.read_unread, h5.read_unread, h7.read_unread,
    View.ld_unit_zero (S := S1x16384) hz, View.ld_unit_zero (S := S256x1) hz, View.ld_unit_zero (S := S1x1) hz]

/-- At the last tile the accumulator ends the same way, -/
theorem sout_C (c : Dev nD) (i : grid0.Coords) (a1 : Memref sig .tc .vmem S1x16384 .f32) (h1 : a1.IsWhole) (a2 : Memref sig .tc .vmem S1x16384 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 : Vec F S1x16384 .f32) (x2 x3 x4 : Vec F S256x1 .f32) (xs0 : Vec F S1x1 .f32) :
    sout0_C_0 c i a1 h1 a2 h2 a3 h3 a4 h4 a5 h5 a6 h6 a7 h7 hc0 hc1 x0 x1 x2 x3 x4 xs0 = k0_pay2 x0 x1 x2 x3 x4 xs0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h3.read_unread, h4.read_unread, h5.read_unread, h7.read_unread,
    View.ld_unit_zero (S := S1x16384) hz, View.ld_unit_zero (S := S256x1) hz, View.ld_unit_zero (S := S1x1) hz]

/-- and the output's staging buffer ends at the scaling store's value of it: the body reads the accumulator back
    after its last addition and stores the product. -/
theorem out_C (c : Dev nD) (i : grid0.Coords) (a1 : Memref sig .tc .vmem S1x16384 .f32) (h1 : a1.IsWhole) (a2 : Memref sig .tc .vmem S1x16384 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i)
    (x0 x1 : Vec F S1x16384 .f32) (x2 x3 x4 : Vec F S256x1 .f32) (xs0 : Vec F S1x1 .f32) :
    out0_C_5 c i a1 h1 a2 h2 a3 h3 a4 h4 a5 h5 a6 h6 a7 h7 hc0 hc1 x0 x1 x2 x3 x4 xs0 = k0_pay3 (k0_pay2 x0 x1 x2 x3 x4 xs0) := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h5.read_unread, h7.read_unread,
    View.ld_unit_zero (S := S1x16384) hz, View.ld_unit_zero (S := S256x1) hz, View.ld_unit_zero (S := S1x1) hz]

/-- At the first tile the accumulator is first reset to the zero word, read back, and added to. -/
theorem sout_A (c : Dev nD) (i : grid0.Coords) (a1 : Memref sig .tc .vmem S1x16384 .f32) (h1 : a1.IsWhole) (a2 : Memref sig .tc .vmem S1x16384 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i)
    (x0 x1 : Vec F S1x16384 .f32) (x2 x3 x4 : Vec F S256x1 .f32) :
    sout0_A_0 c i a1 h1 a2 h2 a3 h3 a4 h4 a5 h5 a6 h6 a7 h7 hc0 hc1 x0 x1 x2 x3 x4 = k0_pay2 x0 x1 x2 x3 x4 k0_pay1 := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S1x16384) hz, View.ld_unit_zero (S := S256x1) hz]

end Cert.Cox.Kernel

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Blocks.lean ====
/-
  The input blocks of a tile, read at coordinates, over the extended reals.

  The host re-lays the arguments before the region: the durations as one row [1, 16384] and as a column [16384, 1],
  the event marks as a column, the scores (already a column) exponentiated and re-laid as one row. The two rows are
  resident: every tile sees all of them. The three columns are cut into 64 tiles of 256 rows, tile t holding the
  samples 256·t … 256·t + 255. A re-laying moves no value, so each block entry is an entry of an argument array.
-/
import proofs.«161742_j75368086110967_2_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic
import proofs.«161742_j75368086110967_2_alg».proof.Proof.LibKeepdims

noncomputable section

namespace Cert.Cox.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- The durations as one row, as the region finds them: the argument vector re-laid as [1, 16384]. -/
theorem V_dur_row (c : Dev nD) : (V m c main_v2 : S1x16384.Idx → EReal)
    = shapeCast S1x16384 (m ((c : Thread nD τ).loc main_arg1)) shapeCasts_S16384_S1x16384 := by
  show StableHlo.after hostOps0 (fun b => m (c, b)) (Proc.devRef .tc main_v2) = _
  after_results; rfl

/-- The exponentiated scores as one row: the host's exponential of the score column re-laid as [1, 16384]. -/
theorem V_exp_row (c : Dev nD) : (V m c main_v1 : S1x16384.Idx → EReal)
    = Host.exp (F := Ideal) (φ := .f32) (shapeCast S1x16384 (m ((c : Thread nD τ).loc main_arg0)) shapeCasts_S16384x1_S1x16384) := by
  show StableHlo.after hostOps0 (fun b => m (c, b)) (Proc.devRef .tc main_v1) = _
  after_results; rfl

/-- The durations as a column [16384, 1]. -/
theorem V_dur_col (c : Dev nD) : (V m c main_v3 : S16384x1.Idx → EReal)
    = shapeCast S16384x1 (m ((c : Thread nD τ).loc main_arg1)) shapeCasts_S16384_S16384x1 := by
  show StableHlo.after hostOps0 (fun b => m (c, b)) (Proc.devRef .tc main_v3) = _
  after_results; rfl

/-- The event marks as a column [16384, 1]. -/
theorem V_ev_col (c : Dev nD) : (V m c main_v4 : S16384x1.Idx → EReal)
    = shapeCast S16384x1 (m ((c : Thread nD τ).loc main_arg2)) shapeCasts_S16384_S16384x1 := by
  show StableHlo.after hostOps0 (fun b => m (c, b)) (Proc.devRef .tc main_v4) = _
  after_results; rfl

/-- The index maps over the grid: the two rows stay at block (0, 0); the three columns are at row block t. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Lane j of the resident duration row is the duration of sample j. -/
theorem iblk0_apply (c : Dev nD) (t : Fin cfg0.N) (j : Fin 16384) :
    (iblk m c 0 t : Vec Ideal S1x16384 .f32) (ix2 (0 : Fin 1) j) = m ((c : Thread nD τ).loc main_arg1) (ix1 j) := by
  obtain ⟨e0, e1, -⟩ := idx_facts t
  unfold iblk
  rw [View.read_apply]
  show V m c main_v2 (((cfg0.win 0).blk t).view.emb (ix2 (0 : Fin 1) j)) = _
  have he : ((cfg0.win 0).blk t).view.emb (ix2 (0 : Fin 1) j) = (ix2 (0 : Fin 1) j : S1x16384.Idx) := by
    funext a; apply Fin.ext
    match a with
    | ⟨0, _⟩ => show win0_0.index t (0 : Fin 2) * 1 + 1 * 0 = 0; omega
    | ⟨1, _⟩ => show win0_0.index t (1 : Fin 2) * 16384 + 1 * j.val = j.val; omega
  rw [he, V_dur_row]
  exact shapeCast_a_1a_apply _ shapeCasts_S16384_S1x16384 (0 : Fin 1) j

/-- Lane j of the resident row of exponentiated scores is exp θⱼ. -/
theorem iblk1_apply (c : Dev nD) (t : Fin cfg0.N) (j : Fin 16384) :
    (iblk m c 1 t : Vec Ideal S1x16384 .f32) (ix2 (0 : Fin 1) j)
      = Ideal.exp (m ((c : Thread nD τ).loc main_arg0) (ix2 j (0 : Fin 1))) := by
  obtain ⟨-, -, e0, e1, -⟩ := idx_facts t
  unfold iblk
  rw [View.read_apply]
  show V m c main_v1 (((cfg0.win 1).blk t).view.emb (ix2 (0 : Fin 1) j)) = _
  have he : ((cfg0.win 1).blk t).view.emb (ix2 (0 : Fin 1) j) = (ix2 (0 : Fin 1) j : S1x16384.Idx) := by
    funext a; apply Fin.ext
    match a with
    | ⟨0, _⟩ => show win0_1.index t (0 : Fin 2) * 1 + 1 * 0 = 0; omega
    | ⟨1, _⟩ => show win0_1.index t (1 : Fin 2) * 16384 + 1 * j.val = j.val; omega
  rw [he, V_exp_row]
  show Ideal.exp (shapeCast S1x16384 (m ((c : Thread nD τ).loc main_arg0)) shapeCasts_S16384x1_S1x16384 (ix2 (0 : Fin 1) j)) = _
  refine congrArg Ideal.exp ?_
  exact shapeCast_apply _ shapeCasts_S16384x1_S1x16384 (ix2 (0 : Fin 1) j) (ix2 j (0 : Fin 1)) (by
    rw [Shape.rowMajor_val_two, Shape.rowMajor_val_two]
    show j.val * 1 + 0 = 0 * 16384 + j.val
    omega)

/-- Row r of tile t is sample 256·t + r. -/
def row (t : Fin cfg0.N) (r : Fin 256) : Fin 16384 :=
  ⟨256 * t.val + r.val, by have := lt_of_lt_of_eq t.isLt (show cfg0.N = 64 from N_0); have := r.isLt; omega⟩

/-- Row r of the tile's duration column is the duration of sample 256·t + r. -/
theorem iblk2_apply (c : Dev nD) (t : Fin cfg0.N) (r : Fin 256) :
    (iblk m c 2 t : Vec Ideal S256x1 .f32) (ix2 r (0 : Fin 1)) = m ((c : Thread nD τ).loc main_arg1) (ix1 (row t r)) := by
  obtain ⟨-, -, -, -, e0, e1, -⟩ := idx_facts t
  unfold iblk
  rw [View.read_apply]
  show V m c main_v3 (((cfg0.win 2).blk t).view.emb (ix2 r (0 : Fin 1))) = _
  have he : ((cfg0.win 2).blk t).view.emb (ix2 r (0 : Fin 1)) = (ix2 (row t r) (0 : Fin 1) : S16384x1.Idx) := by
    funext a; apply Fin.ext
    match a with
    | ⟨0, _⟩ => show win0_2.index t (0 : Fin 2) * 256 + 1 * r.val = 256 * t.val + r.val; omega
    | ⟨1, _⟩ => show win0_2.index t (1 : Fin 2) * 1 + 1 * 0 = 0; omega
  rw [he, V_dur_col]
  exact Cert.Lib.Keepdims.shapeCast_a_a1_apply _ shapeCasts_S16384_S16384x1 (row t r) (0 : Fin 1)

/-- Row r of the tile's score column is the score of sample 256·t + r. -/
theorem iblk3_apply (c : Dev nD) (t : Fin cfg0.N) (r : Fin 256) :
    (iblk m c 3 t : Vec Ideal S256x1 .f32) (ix2 r (0 : Fin 1))
      = m ((c : Thread nD τ).loc main_arg0) (ix2 (row t r) (0 : Fin 1)) := by
  obtain ⟨-, -, -, -, -, -, e0, e1, -⟩ := idx_facts t
  unfold iblk
  rw [View.read_apply]
  show V m c main_arg0 (((cfg0.win 3).blk t).view.emb (ix2 r (0 : Fin 1))) = _
  have he : ((cfg0.win 3).blk t).view.emb (ix2 r (0 : Fin 1)) = (ix2 (row t r) (0 : Fin 1) : S16384x1.Idx) := by
    funext a; apply Fin.ext
    match a with
    | ⟨0, _⟩ => show win0_3.index t (0 : Fin 2) * 256 + 1 * r.val = 256 * t.val + r.val; omega
    | ⟨1, _⟩ => show win0_3.index t (1 : Fin 2) * 1 + 1 * 0 = 0; omega
  rw [he, V_main_arg0]

/-- Row r of the tile's event column is the event mark of sample 256·t + r. -/
theorem iblk4_apply (c : Dev nD) (t : Fin cfg0.N) (r : Fin 256) :
    (iblk m c 4 t : Vec Ideal S256x1 .f32) (ix2 r (0 : Fin 1)) = m ((c : Thread nD τ).loc main_arg2) (ix1 (row t r)) := by
  obtain ⟨-, -, -, -, -, -, -, -, e0, e1⟩ := idx_facts t
  unfold iblk
  rw [View.read_apply]
  show V m c main_v4 (((cfg0.win 4).blk t).view.emb (ix2 r (0 : Fin 1))) = _
  have he : ((cfg0.win 4).blk t).view.emb (ix2 r (0 : Fin 1)) = (ix2 (row t r) (0 : Fin 1) : S16384x1.Idx) := by
    funext a; apply Fin.ext
    match a with
    | ⟨0, _⟩ => show win0_4.index t (0 : Fin 2) * 256 + 1 * r.val = 256 * t.val + r.val; omega
    | ⟨1, _⟩ => show win0_4.index t (1 : Fin 2) * 1 + 1 * 0 = 0; omega
  rw [he, V_ev_col]
  exact Cert.Lib.Keepdims.shapeCast_a_a1_apply _ shapeCasts_S16384_S16384x1 (row t r) (0 : Fin 1)

end Cert.Cox.Kernel

end
-- ==== Proof.LibColumnSum.lean ====
/-
  The second half of a sum that keeps its axes: a column [a, 1] summed along its rows into a one-element
  array. At exact arithmetic the float sum into an array whose every axis has extent one is the sum over
  every entry of the operand; for a column that is the sum over its row coordinate. And the one-element
  array cast to 1×1 moves no value (the cast of a vector to a column, at a = 1).
-/
import Idealize.ShloMosaic.Lib.ValueLayout
import Idealize.ShloMosaic.PureOps.Ideal.Laws

namespace Cert.Lib.ColumnSum

open Idealize.ShloMosaic Idealize.ShloMosaic.ValueIdx

/-- A float sum of a column [a, 1] over its rows from the zero word, at exact arithmetic, is at its one index
    the sum of the column's entries. -/
theorem colSum_apply {a : ℕ} (src : FVec Ideal ⟨2, ![a, 1]⟩ .f32)
    (h : (⟨2, ![a, 1]⟩ : Shape).Reduces [0] (⟨1, ![1]⟩ : Shape)) (hφ : FKind.Formats .f32)
    (hacc : (0x00000000#32 : BitVec 32) = 0x00000000#32) (u : Fin 1) :
    multiReduction .add [0] ⟨1, ![1]⟩ src 0x00000000#32 h hφ hacc (ix1 u) = ∑ p : Fin a, src (ix2 p (0 : Fin 1)) := by
  refine (Ideal.multiReduction_add_total src 0x00000000#32 h (fun b => by fin_cases b; rfl) hφ hacc (ix1 u)).trans ?_
  rw [sum_idx2]
  exact Finset.sum_congr rfl fun p _ => Fin.sum_univ_one _

end Cert.Lib.ColumnSum
-- ==== Proof.Payload.lean ====
/-
  The three stores of the kernel body, read at the one index of a 1×1 buffer, over the extended reals.

  The accumulator is a 1×1 scratch. At a tile the body adds to it the sum over the tile's 256 rows r of
  (θᵣ - log (Σⱼ weight r j)) · eᵣ, where the inner sum runs over all 16384 lanes j of the resident rows (durations
  and exponentiated scores) and weight r j is exp θⱼ when dⱼ ≥ dᵣ, else the word of +0.0. The body reaches that
  number through a row broadcast [1, n] → [256, n], a column broadcast [256, 1] → [256, n], a lane sum kept as a
  column, and a row sum kept as a 1×1 matrix; each of these is read here at explicit coordinates.
-/
import proofs.«161742_j75368086110967_2_alg».proof.Proof.Gen.KernelIdeal.Skeleton
import proofs.«161742_j75368086110967_2_alg».proof.Proof.LibKeepdims
import proofs.«161742_j75368086110967_2_alg».proof.Proof.LibColumnSum
import Idealize.ShloMosaic.Lib.ValueLayout
import Idealize.ShloMosaic.Lib.Pipeline.Value

noncomputable section

namespace Cert.Cox.Kernel

open Idealize.ShloMosaic Idealize.ShloMosaic.ValueIdx Cert.KernelIdeal Cert.KernelIdeal.Gen

/-- One row's term of a tile, from the tile's blocks: x0 the durations as one row, x1 the exponentiated scores as one
    row, x2 / x3 / x4 the tile's durations, scores and event marks as columns. Row r's risk-set sum runs over all
    16384 lanes; a lane counts when its duration is at least row r's. -/
def rowTerm (x0 x1 : Vec Ideal S1x16384 .f32) (x2 x3 x4 : Vec Ideal S256x1 .f32) (r : Fin 256) : EReal :=
  (x3 (ix2 r (0 : Fin 1)) - Ideal.log (∑ j : Fin 16384, Scalar.select
      (FloatOps.cmpf (F := Ideal) (φ := .f32) .oge (x0 (ix2 (0 : Fin 1) j)) (x2 (ix2 r (0 : Fin 1))))
      (x1 (ix2 (0 : Fin 1) j)) (Ideal.ofBits .f32 0x00000000#32))) * x4 (ix2 r (0 : Fin 1))

/-- A product of a difference with a logarithm, read at an index. -/
theorem mul_sub_log_apply {s : Shape} (a v b : FVec Ideal s .f32) (i : s.Idx) :
    mulf (subf a (log v)) b i = (a i - Ideal.log (v i)) * b i := rfl

/-- A choice between a value and a constant under a comparison, read at an index. -/
theorem select_cmp_apply {s : Shape} (a b e : FVec Ideal s .f32) (z : Ideal .f32) (i : s.Idx) :
    select (cmpf .oge a b) e (broadcast s z) i = Scalar.select (FloatOps.cmpf .oge (a i) (b i)) (e i) z := rfl

/-- The accumulating store's value at its one index: the accumulator read before it plus the 256 row terms of the
    tile. The lane sum and the row sum are the exact sums; the casts between a vector and a one-column matrix and the
    broadcasts of a row and of a column move no value. -/
theorem pay2_apply (x0 x1 : Vec Ideal S1x16384 .f32) (x2 x3 x4 : Vec Ideal S256x1 .f32) (acc : Vec Ideal S1x1 .f32) :
    k0_pay2 (F := Ideal) x0 x1 x2 x3 x4 acc (ix2 (0 : Fin 1) (0 : Fin 1))
      = acc (ix2 (0 : Fin 1) (0 : Fin 1)) + ∑ r : Fin 256, rowTerm x0 x1 x2 x3 x4 r := by
  unfold k0_pay2
  simp only [shapeCast_self]
  refine congrArg (acc (ix2 (0 : Fin 1) (0 : Fin 1)) + ·) ?_
  refine (Cert.Lib.Keepdims.shapeCast_a_a1_apply _ shapeCasts_S1_S1x1 (0 : Fin 1) (0 : Fin 1)).trans ?_
  refine (Cert.Lib.ColumnSum.colSum_apply _ reduces_S256x1_S1 _ _ (0 : Fin 1)).trans ?_
  refine Finset.sum_congr rfl fun r _ => ?_
  unfold rowTerm
  refine (mul_sub_log_apply _ _ _ _).trans ?_
  refine congrArg (fun z => (x3 (ix2 r (0 : Fin 1)) - Ideal.log z) * x4 (ix2 r (0 : Fin 1))) ?_
  refine (Cert.Lib.Keepdims.shapeCast_a_a1_apply _ shapeCasts_S256_S256x1 r (0 : Fin 1)).trans ?_
  refine (Cert.Lib.Keepdims.rowSum_apply _ reduces_S256x16384_S256 _ _ r).trans ?_
  refine Finset.sum_congr rfl fun j _ => ?_
  refine (select_cmp_apply _ _ _ _ _).trans ?_
  rw [broadcastTo_1b_ab_apply x0, broadcastTo_1b_ab_apply x1, Cert.Lib.Keepdims.broadcastTo_a1_ab_apply x2]
  rfl

/-- The scaling store's value at its one index: the accumulator times the word of -(1/16384). -/
theorem pay3_apply (acc : Vec Ideal S1x1 .f32) :
    k0_pay3 (F := Ideal) acc (ix2 (0 : Fin 1) (0 : Fin 1))
      = acc (ix2 (0 : Fin 1) (0 : Fin 1)) * Ideal.ofBits .f32 0xB8800000#32 := rfl

/-- The resetting store's value at its one index: the word of +0.0. -/
theorem pay1_apply : k0_pay1 (F := Ideal) (ix2 (0 : Fin 1) (0 : Fin 1)) = Ideal.ofBits .f32 0x00000000#32 := rfl

end Cert.Cox.Kernel

end
-- ==== Proof.Spec.lean ====
/-
  The Cox partial-likelihood loss as one function of the argument arrays, over the extended reals.

  For n = 16384 samples with scores θ (a column [n, 1]), durations d and event marks e (vectors [n]):
    weight i j = exp θⱼ if dⱼ ≥ dᵢ, else 0            (sample j is at risk when sample i fails)
    risk i     = Σⱼ weight i j
    term i     = (θᵢ - log (risk i)) · eᵢ
  and the loss is (Σᵢ term i) · (-(1/n)). The sum over i is taken here over the natural numbers below n through a
  total accessor, so that it can be cut into consecutive stretches of rows: the sum of the first a + b terms is the
  sum of the first a terms plus the b terms that follow. Only associativity and commutativity of addition on the
  extended reals are used; nothing needs the inputs finite.
-/
import Idealize.ShloMosaic.Lib.ValueIdx
import Idealize.ShloMosaic.PureOps.Ideal.Laws

noncomputable section

namespace Cert.Cox

open Idealize.ShloMosaic Idealize.ShloMosaic.ValueIdx

/-- What sample j contributes to the risk set of sample i: exp θⱼ when dⱼ ≥ dᵢ, else 0. -/
def weight (θ : (⟨2, ![16384, 1]⟩ : Shape).Idx → EReal) (d : (⟨1, ![16384]⟩ : Shape).Idx → EReal) (i j : Fin 16384) : EReal :=
  Scalar.select (FloatOps.cmpf (F := Ideal) (φ := .f32) .oge (d (ix1 j)) (d (ix1 i))) (Ideal.exp (θ (ix2 j (0 : Fin 1)))) 0

/-- The risk-set sum of sample i. -/
def risk (θ : (⟨2, ![16384, 1]⟩ : Shape).Idx → EReal) (d : (⟨1, ![16384]⟩ : Shape).Idx → EReal) (i : Fin 16384) : EReal :=
  ∑ j : Fin 16384, weight θ d i j

/-- Sample i's term of the log partial likelihood. -/
def term (θ : (⟨2, ![16384, 1]⟩ : Shape).Idx → EReal) (d e : (⟨1, ![16384]⟩ : Shape).Idx → EReal) (i : Fin 16384) : EReal :=
  (θ (ix2 i (0 : Fin 1)) - Ideal.log (risk θ d i)) * e (ix1 i)

/-- The same at any natural number: 0 past the last sample. -/
def termN (θ : (⟨2, ![16384, 1]⟩ : Shape).Idx → EReal) (d e : (⟨1, ![16384]⟩ : Shape).Idx → EReal) (K : ℕ) : EReal :=
  if h : K < 16384 then term θ d e ⟨K, h⟩ else 0

theorem termN_of_lt (θ : (⟨2, ![16384, 1]⟩ : Shape).Idx → EReal) (d e : (⟨1, ![16384]⟩ : Shape).Idx → EReal) (K : ℕ)
    (h : K < 16384) : termN θ d e K = term θ d e ⟨K, h⟩ := dif_pos h

/-- The sum of the first n terms. -/
def firstTerms (θ : (⟨2, ![16384, 1]⟩ : Shape).Idx → EReal) (d e : (⟨1, ![16384]⟩ : Shape).Idx → EReal) (n : ℕ) : EReal :=
  ∑ K ∈ Finset.range n, termN θ d e K

/-- One more stretch of b rows after the first a. -/
theorem firstTerms_add (θ : (⟨2, ![16384, 1]⟩ : Shape).Idx → EReal) (d e : (⟨1, ![16384]⟩ : Shape).Idx → EReal) (a b : ℕ) :
    firstTerms θ d e (a + b) = firstTerms θ d e a + ∑ r : Fin b, termN θ d e (a + r.val) := by
  unfold firstTerms
  rw [Finset.sum_range_add, Fin.sum_univ_eq_sum_range (fun r => termN θ d e (a + r)) b]

/-- All n terms: the sum over the samples. -/
theorem firstTerms_all (θ : (⟨2, ![16384, 1]⟩ : Shape).Idx → EReal) (d e : (⟨1, ![16384]⟩ : Shape).Idx → EReal) :
    firstTerms θ d e 16384 = ∑ i : Fin 16384, term θ d e i := by
  unfold firstTerms
  rw [← Fin.sum_univ_eq_sum_range (fun K => termN θ d e K) 16384]
  exact Finset.sum_congr rfl fun i _ => termN_of_lt θ d e i.val i.isLt

end Cert.Cox

end
-- ==== Proof.Accum.lean ====
/-
  The accumulator across the grid.

  The scratch holds, after tile n, the reset value plus the tile sums of tiles 0 … n: a fold in tile order. At exact
  arithmetic a tile's sum is the sum of the terms of its 256 samples, the reset value is 0, and the fold is the sum of
  the first 256·(n + 1) terms; after the last tile that is every term. The fold itself is read off the run case by
  case (first tile, middle tiles, last tile) by induction on the tile, never by listing the 64 tiles.
-/
import proofs.«161742_j75368086110967_2_alg».proof.Proof.Pieces
import proofs.«161742_j75368086110967_2_alg».proof.Proof.Blocks
import proofs.«161742_j75368086110967_2_alg».proof.Proof.Payload
import proofs.«161742_j75368086110967_2_alg».proof.Proof.Spec

noncomputable section

namespace Cert.Cox.Kernel

open Idealize.ShloMosaic Idealize.ShloMosaic.TcCoe Idealize.SL.Sem Idealize.ShloMosaic.ValueIdx Cert.KernelIdeal Cert.KernelIdeal.Gen
open Idealize.ShloMosaic.Pipeline (Dat)

section AnyInstance

variable {F : FTy → Type} [FloatOps F]
variable (m : (ℓ : Loc nD τ sig) → Buf (Elt F) ℓ)

/-- The accumulator after tile n: the reset value plus tile 0's sum, then one tile's sum more per tile. -/
def accAfter (c : Dev nD) : (n : ℕ) → n < cfg0.N → Vec F S1x1 .f32
  | 0, h => k0_pay2 (iblk m c 0 ⟨0, h⟩) (iblk m c 1 ⟨0, h⟩) (iblk m c 2 ⟨0, h⟩) (iblk m c 3 ⟨0, h⟩) (iblk m c 4 ⟨0, h⟩) k0_pay1
  | n + 1, h => k0_pay2 (iblk m c 0 ⟨n + 1, h⟩) (iblk m c 1 ⟨n + 1, h⟩) (iblk m c 2 ⟨n + 1, h⟩) (iblk m c 3 ⟨n + 1, h⟩) (iblk m c 4 ⟨n + 1, h⟩) (accAfter c n (Nat.lt_of_succ_lt h))

/-- What the run leaves in the scratch after tile n is that accumulator: by induction on the tile. -/
theorem scratch_eq (c : Dev nD) : ∀ (n : ℕ) (h : n < cfg0.N), (outsAt0 m c n h).2 = accAfter m c n h
  | 0, h => by
    refine (congrArg Prod.snd (outsAt0_A m c ⟨0, h⟩ rfl (by show ¬(0 % 64 = 63); decide))).trans ?_
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (fun hh => absurd ((hcond0_1 ⟨0, h⟩).mp hh) (by show ¬(0 % 64 = 63); decide)) (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · refine (congrArg Prod.snd (outsAt0_C m c ⟨n + 1, h⟩ h0 h1)).trans ?_
      refine (sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) _).trans ?_
      show k0_pay2 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n _).2 = k0_pay2 (iblk m c 0 ⟨n + 1, h⟩) (iblk m c 1 ⟨n + 1, h⟩) (iblk m c 2 ⟨n + 1, h⟩) (iblk m c 3 ⟨n + 1, h⟩) (iblk m c 4 ⟨n + 1, h⟩) (accAfter m c n _)
      rw [scratch_eq c n]
    · refine (congrArg Prod.snd (outsAt0_B m c ⟨n + 1, h⟩ h0 h1)).trans ?_
      refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) _).trans ?_
      show k0_pay2 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n _).2 = k0_pay2 (iblk m c 0 ⟨n + 1, h⟩) (iblk m c 1 ⟨n + 1, h⟩) (iblk m c 2 ⟨n + 1, h⟩) (iblk m c 3 ⟨n + 1, h⟩) (iblk m c 4 ⟨n + 1, h⟩) (accAfter m c n _)
      rw [scratch_eq c n]

/-- At the last tile the output's staging buffer ends at the scaled accumulator. -/
theorem out_last (c : Dev nD) : ∀ (n : ℕ) (h : n < cfg0.N), n % 64 = 63 →
    (outsAt0 m c n h).1 = k0_pay3 (accAfter m c n h)
  | 0, h, h1 => by omega
  | n + 1, h, h1 => by
    have hN : cfg0.N = 64 := N_0
    have h0 : ¬(⟨n + 1, h⟩ : Fin cfg0.N).val % 64 = 0 := by dsimp only; omega
    refine (congrArg Prod.fst (outsAt0_C m c ⟨n + 1, h⟩ h0 h1)).trans ?_
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2).trans ?_
    show k0_pay3 (k0_pay2 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n _).2) = k0_pay3 (k0_pay2 (iblk m c 0 ⟨n + 1, h⟩) (iblk m c 1 ⟨n + 1, h⟩) (iblk m c 2 ⟨n + 1, h⟩) (iblk m c 3 ⟨n + 1, h⟩) (iblk m c 4 ⟨n + 1, h⟩) (accAfter m c n _))
    rw [scratch_eq m c n]

end AnyInstance

section Exact

variable (m : (ℓ : Loc nD τ sig) → Buf (Elt Ideal) ℓ)

/-- A row term of tile t is the term of sample 256·t + r of the argument arrays. -/
theorem rowTerm_iblk (c : Dev nD) (t : Fin cfg0.N) (r : Fin 256) :
    rowTerm (iblk m c 0 t) (iblk m c 1 t) (iblk m c 2 t) (iblk m c 3 t) (iblk m c 4 t) r
      = termN (m ((c : Thread nD τ).loc main_arg0)) (m ((c : Thread nD τ).loc main_arg1)) (m ((c : Thread nD τ).loc main_arg2))
          (256 * t.val + r.val) := by
  refine Eq.trans ?_ (termN_of_lt _ _ _ (256 * t.val + r.val) (row t r).isLt).symm
  unfold rowTerm term risk weight
  simp only [iblk0_apply, iblk1_apply, iblk2_apply, iblk3_apply, iblk4_apply, Ideal.ofBits_zero_f32]
  rfl

/-- The accumulator after tile n is the sum of the first 256·(n + 1) terms. -/
theorem accAfter_apply (c : Dev nD) : ∀ (n : ℕ) (h : n < cfg0.N),
    accAfter m c n h (ix2 (0 : Fin 1) (0 : Fin 1))
      = firstTerms (m ((c : Thread nD τ).loc main_arg0)) (m ((c : Thread nD τ).loc main_arg1)) (m ((c : Thread nD τ).loc main_arg2))
          (256 * (n + 1))
  | 0, h => by
    refine (pay2_apply (iblk m c 0 ⟨0, h⟩) (iblk m c 1 ⟨0, h⟩) (iblk m c 2 ⟨0, h⟩) (iblk m c 3 ⟨0, h⟩) (iblk m c 4 ⟨0, h⟩) (k0_pay1 (F := Ideal))).trans ?_
    rw [pay1_apply, Ideal.ofBits_zero_f32, show 256 * (0 + 1) = 0 + 256 from rfl, firstTerms_add]
    refine congrArg₂ (· + ·) (by unfold firstTerms; rw [Finset.sum_range_zero]) ?_
    exact Finset.sum_congr rfl fun r _ => rowTerm_iblk m c ⟨0, h⟩ r
  | n + 1, h => by
    refine (pay2_apply (iblk m c 0 ⟨n + 1, h⟩) (iblk m c 1 ⟨n + 1, h⟩) (iblk m c 2 ⟨n + 1, h⟩) (iblk m c 3 ⟨n + 1, h⟩) (iblk m c 4 ⟨n + 1, h⟩) (accAfter m c n (Nat.lt_of_succ_lt h))).trans ?_
    rw [accAfter_apply c n, show 256 * (n + 1 + 1) = 256 * (n + 1) + 256 from by omega, firstTerms_add]
    refine congrArg (_ + ·) ?_
    exact Finset.sum_congr rfl fun r _ => rowTerm_iblk m c ⟨n + 1, h⟩ r

end Exact

end Cert.Cox.Kernel

end
-- ==== Proof.KernelRun.lean ====
/-
  The kernel's run, read as a value.

  The output is one 1×1 block whose index never moves; the pipeline writes it back once, after the last tile, where
  the body has stored the accumulator times the scale. So the output array ends at that product. After the region
  the host re-lays the 1×1 array as a scalar and adds the weight penalty 0.01 · √(Σ W²), computed from the fourth
  argument alone. The statements hold for any float instance; the arithmetic is read elsewhere.
-/
import proofs.«161742_j75368086110967_2_alg».proof.Proof.Accum
import Idealize.ShloMosaic.Lib.StableHlo.Run

noncomputable section

namespace Cert.Cox.Kernel

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The last tile. -/
abbrev lastTile : Fin cfg0.N := ⟨63, by rw [show cfg0.N = 64 from N_0]; decide⟩

/-- What the output array holds after the run: the accumulator after the last tile, scaled. -/
abbrev outArr (c : Dev nD) : Buf (Elt F) ((c : Thread nD τ).loc main_v5) := k0_pay3 (accAfter m c 63 lastTile.isLt)

/-- The one write-back, at the last tile, writes it: block (0, 0) of a 1×1 array read through zero offsets is the array. -/
theorem flushed_eq (c : Dev nD) (t : Fin cfg0.N) (hf : (cfg0.win 5).flush t = true) :
    (dats m 0 c).flushed 5 t = ((cfg0.win 5).blk t).view.read (Elt F) (outArr m c) := by
  have hN : cfg0.N = 64 := N_0
  have h63 : t.val = 63 := by have := (flush0_5 t).mp hf; have := t.isLt; omega
  obtain rfl : t = lastTile := Fin.ext h63
  show (cfg0.win 5).cut (grid0.coords lastTile) ((dats m 0 c).after 5 lastTile) = _
  rw [after0_5, out_last m c 63 lastTile.isLt (by decide)]
  have hz' : (fun a => win0_5.index lastTile a * main_v5.ty.shape.size a) = fun _ => 0 := funext fun a => by fin_cases a <;> decide
  exact (Memref.read_access_unit_zero (Elt F) main_v5 hz' (fun a => by rw [congrFun hz' a]; simp) (outArr m c)).symm

/-- So the output array ends holding it: the last tile's block covers the array. -/
theorem final_out (c : Dev nD) : (dats m 0 c).arrAt 5 cfg0.N = outArr m c :=
  (dats m 0 c).arrAt_eq_of_cover 5 (outArr m c) (flushed_eq m c) fun i =>
    ⟨lastTile, (flush0_5 lastTile).mpr rfl, by
      show i ∈ ((View.whole main_v5).slice (win0_5.rect lastTile)).set
      rw [View.set_slice_whole, Rect.mem_set_unit]
      intro a
      have h0 : (i 0 : Nat) < 1 := (i 0).isLt
      have h1 : (i 1 : Nat) < 1 := (i 1).isLt
      match a with
      | ⟨0, _⟩ => show win0_5.index lastTile 0 * win0_5.size 0 ≤ (i 0 : Nat) ∧ (i 0 : Nat) < win0_5.index lastTile 0 * win0_5.size 0 + win0_5.xsize (grid0.coords lastTile) 0
                  rw [show win0_5.index lastTile 0 * win0_5.size 0 = 0 from by decide +kernel, show win0_5.xsize (grid0.coords lastTile) 0 = 1 from by decide +kernel]; omega
      | ⟨1, _⟩ => show win0_5.index lastTile 1 * win0_5.size 1 ≤ (i 1 : Nat) ∧ (i 1 : Nat) < win0_5.index lastTile 1 * win0_5.size 1 + win0_5.xsize (grid0.coords lastTile) 1
                  rw [show win0_5.index lastTile 1 * win0_5.size 1 = 0 from by decide +kernel, show win0_5.xsize (grid0.coords lastTile) 1 = 1 from by decide +kernel]; omega⟩

/-- The weight penalty both programs add: the word of 0.01 times the square root of the sum of the squared weights. -/
def penalty (W : S512x256.Idx → F .f32) : S_.Idx → F .f32 :=
  mulf (constant S_ .f32 0x3C23D70A#32)
    (Host.sqrt (Host.reduceAdd (mulf W W) (constant S_ .f32 0x00000000#32) reducesTo_S512x256_S_d0_1 h_S_))

/-- The host lines after the region, read back: the result is the output array re-laid as a scalar plus the penalty
    of the weights as launched (no line before or after the region writes them). -/
theorem result_eq (c : Dev nD) :
    Pipeline.afterTail₀ cfgs (dats m) 0 (V0 m) [hostOps1, hostOps1_1, hostOps1_2] c main_v9
      = addf (shapeCast S_ (outArr m c) shapeCasts_S1x1_S_) (penalty (m ((c : Thread nD τ).loc main_arg3))) := by
  unfold Pipeline.afterTail₀
  simp only [hostOps1, hostOps1_1, hostOps1_2, List.flatten_cons, List.flatten_nil, List.append_nil, List.cons_append, List.nil_append]
  after_results
  have e5 : Pipeline.withArrays (cfgs 0).spec c (V0 m c) (fun w => (dats m 0 c).arrAt w (cfgs 0).N) (Proc.tc.devRef main_v5)
      = outArr m c :=
    (Pipeline.withArrays_arr spec0 launch0.win.arr_inj c _ _ 5).trans (final_out m c)
  have e3 : Pipeline.withArrays (cfgs 0).spec c (V0 m c) (fun w => (dats m 0 c).arrAt w (cfgs 0).N) (Proc.tc.devRef main_arg3)
      = m ((c : Thread nD τ).loc main_arg3) :=
    (Pipeline.withArrays_of_ne _ c (V0 m c) _ main_arg3 (by decide)).trans (V_main_arg3 m c)
  show addf (shapeCast S_ (Pipeline.withArrays (cfgs 0).spec c (V0 m c) (fun w => (dats m 0 c).arrAt w (cfgs 0).N) (Proc.tc.devRef main_v5)) shapeCasts_S1x1_S_)
    (penalty (Pipeline.withArrays (cfgs 0).spec c (V0 m c) (fun w => (dats m 0 c).arrAt w (cfgs 0).N) (Proc.tc.devRef main_arg3))) = _
  rw [e5, e3]

/-- THE KERNEL'S RUN, READ: every weakly fair execution ends with the result at the scaled accumulator re-laid as a
    scalar plus the penalty, and with the four arguments as launched. -/
theorem run : θ_run defs (onTc (τ := τ) (main (F := F))) ⟨m, fun _ => 0, ρ⟩ fun r => ∀ c : Dev nD,
      r.2.mem ((c.tc : Thread nD τ).loc main_v9)
        = addf (shapeCast S_ (outArr m c) shapeCasts_S1x1_S_) (penalty (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (result_eq m c),
      ((h c).1 3).trans (((dats m 0 c).arrAt_in 3 rfl _).trans ((A_eq m c 3).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Cox.Kernel

end
-- ==== Proof.Scale.lean ====
/-
  The two float constants of the mean. The kernel multiplies the accumulated sum by the word 0xB8800000, which
  denotes -2⁻¹⁴ = -1/16384; the reference divides the sum by the word 0x46800000, which denotes 2¹⁴ = 16384, and
  negates the quotient. On every extended real x, infinite ones included, x · (-(1/16384)) = -(x / 16384): division by
  a nonzero real is multiplication by its inverse, and a sign moves across a product.
-/
import Idealize.ShloMosaic.PureOps.Ideal

noncomputable section

namespace Cert.Cox

open Idealize.ShloMosaic

/-- The reference's divisor: the word of 16384.0 denotes the real 16384. -/
theorem ofBits_count : Ideal.ofBits .f32 0x46800000#32 = ((16384 : ℝ) : EReal) := by
  simp [Ideal.ofBits, Ideal.ieee, -EReal.coe_mul]; norm_num

/-- The kernel's factor: the word of -6.10351563e-5 denotes the real -(1/16384), exactly. -/
theorem ofBits_neg_inv_count : Ideal.ofBits .f32 0xB8800000#32 = ((-(1 / 16384) : ℝ) : EReal) := by
  simp [Ideal.ofBits, Ideal.ieee, -EReal.coe_mul]; norm_num

/-- Multiplying by -(1/16384) is dividing by 16384 and negating, on all of the extended reals. -/
theorem mul_neg_inv_count (x : EReal) :
    x * Ideal.ofBits .f32 0xB8800000#32 = -(Ideal.div x (Ideal.ofBits .f32 0x46800000#32)) := by
  rw [ofBits_count, ofBits_neg_inv_count, Ideal.div_coe (by norm_num : (16384 : ℝ) ≠ 0), EReal.coe_neg, mul_neg]

end Cert.Cox

end
-- ==== Proof.LibVectorSum.lean ====
/-
  A sum over the indices of a one-axis array is the sum over its one coordinate: the indices of an array [n]
  correspond one to one to the numbers below n.
-/
import Idealize.ShloMosaic.Lib.ValueIdx

namespace Cert.Lib.VectorSum

open Idealize.ShloMosaic Idealize.ShloMosaic.ValueIdx

/-- The numbers below n and the indices of an array [n], matched by the coordinate. -/
def idxEquiv1 {n : ℕ} : Fin n ≃ (⟨1, ![n]⟩ : Shape).Idx where
  toFun := ix1
  invFun j := j 0
  left_inv _ := rfl
  right_inv j := (eq_ix1 j).symm

/-- A sum over the indices of an array [n], in any commutative additive monoid, is the sum over i below n of the
    summand at the index with coordinate i. -/
theorem sum_idx1 {M : Type*} [AddCommMonoid M] {n : ℕ} (f : (⟨1, ![n]⟩ : Shape).Idx → M) :
    ∑ j, f j = ∑ i : Fin n, f (ix1 i) :=
  (Equiv.sum_comp idxEquiv1 f).symm

end Cert.Lib.VectorSum
-- ==== Proof.RefValue.lean ====
/-
  The reference, read at an index, is the specification.

  The reference builds the full 16384 × 16384 mask dₖ ≥ dᵢ as 0/1 floats, multiplies it entry by entry into the
  broadcast row of exp θₖ, sums along k, takes the logarithm, subtracts it from θᵢ, multiplies by eᵢ, averages over i
  and negates. Read at an index each broadcast is an index shuffle, the mask's factor keeps exp θₖ or turns it into 0,
  and the two host sums start from the word of +0.0: what is left is the specification's term, summed over the samples,
  divided by the word of 16384 and negated.
-/
import proofs.«161742_j75368086110967_2_alg».proof.Proof.Gen.ReferenceIdeal.Read
import proofs.«161742_j75368086110967_2_alg».proof.Proof.Spec
import proofs.«161742_j75368086110967_2_alg».proof.Proof.Scale
import proofs.«161742_j75368086110967_2_alg».proof.Proof.LibVectorSum
import Idealize.ShloMosaic.Lib.ValueIdx

noncomputable section

namespace Cert.Cox.Reference

open Idealize.ShloMosaic Idealize.ShloMosaic.ValueIdx Cert.ReferenceIdeal Cert.ReferenceIdeal.Gen Cert.ReferenceIdeal.Read

/-- A 0/1 mask bit as a factor: multiplying by the bit read as a number keeps the value or gives 0. -/
theorem mul_bit (b : BitVec 1) (x : EReal) : x * (((b.toNat : ℝ)) : EReal) = Scalar.select b x 0 := by
  rcases (by decide : ∀ b : BitVec 1, b = 0#1 ∨ b = 1#1) b with rfl | rfl
  · rw [select_zero]; simp
  · rw [select_one]; simp

/-- A mask bit converted to a float is the bit read as a number. -/
theorem uitofp_bit (b : BitVec 1) : FloatOps.uitofp (F := Ideal) .f32 b = (((b.toNat : ℝ)) : EReal) := rfl

/-- The reference's flattened score vector reads the score column at (i, 0). -/
theorem idx_score (i : Fin 16384) : idx_main_v0 (ix1 i) = (ix2 i (0 : Fin 1) : S16384x1.Idx) :=
  funext fun a => Fin.ext (by match a with | ⟨0, _⟩ => exact Nat.div_one _ | ⟨1, _⟩ => rfl)

/-- Entry (i, k) of the broadcast exponentiated scores reads the score column at (k, 0). -/
theorem idx_score_lane (i k : Fin 16384) :
    idx_main_v0 (idx_main_v8 (idx_main_v9 (idx_main_v11 (ix1 i) k))) = (ix2 k (0 : Fin 1) : S16384x1.Idx) :=
  funext fun a => Fin.ext (by match a with | ⟨0, _⟩ => exact Nat.div_one _ | ⟨1, _⟩ => rfl)

/-- Entry (i, k) of the durations broadcast along the rows reads duration k. -/
theorem idx_dur_lane (i k : Fin 16384) : idx_main_v1 (idx_main_v3 (idx_main_v11 (ix1 i) k)) = (ix1 k : S16384.Idx) :=
  funext fun a => Fin.ext (by match a with | ⟨0, _⟩ => rfl)

/-- Entry (i, k) of the durations broadcast along the columns reads duration i. -/
theorem idx_dur_row (i k : Fin 16384) : idx_main_v2 (idx_main_v4 (idx_main_v11 (ix1 i) k)) = (ix1 i : S16384.Idx) :=
  funext fun a => Fin.ext (by match a with | ⟨0, _⟩ => rfl)

/-- The reference's summand for sample i, before the sum over the samples, is sample i's term: its risk-set sum
    multiplies exp θₖ by the 0/1 mask of dₖ ≥ dᵢ where the specification chooses between exp θₖ and 0, and starts
    from the word of +0.0, which is 0. -/
theorem ref_term (θ : (⟨S16384x1, .f32⟩ : BufTy).Contents (Elt Ideal)) (d e : (⟨S16384, .f32⟩ : BufTy).Contents (Elt Ideal)) (i : Fin 16384) :
    val_main_v14 (F := Ideal) θ d e (ix1 i) = Cert.Cox.term θ d e i := by
  rw [val_main_v14_apply, val_main_v13_apply, val_main_v12_apply, val_main_v0_apply, val_main_v11_apply]
  simp only [val_main_v10_apply, val_main_v9_apply, val_main_v8_apply, val_main_v7_apply, val_main_v6_apply, val_main_v5_apply,
    val_main_v4_apply, val_main_v3_apply, val_main_v2_apply, val_main_v1_apply, val_main_v0_apply, val_main_cst_apply,
    idx_score, idx_score_lane, idx_dur_lane, idx_dur_row, uitofp_bit, Ideal.mulf_def, Ideal.subf_def, Ideal.hostUnary_log_def,
    Ideal.hostUnary_exp_def, Ideal.ofBits_def, Ideal.ofBits_zero_f32, zero_add, mul_bit]
  rfl

/-- The reference's mean over the samples, negated: minus the quotient of the sum of all terms by the word of 16384.
    The host's sum over the vector's indices is the sum over the samples, from the word of +0.0. -/
theorem ref_mean (θ : (⟨S16384x1, .f32⟩ : BufTy).Contents (Elt Ideal)) (d e : (⟨S16384, .f32⟩ : BufTy).Contents (Elt Ideal)) (i : S_.Idx) :
    val_main_v17 (F := Ideal) θ d e i
      = -(Ideal.div (Cert.Cox.firstTerms θ d e 16384) (Ideal.ofBits .f32 0x46800000#32)) := by
  rw [val_main_v17_apply, val_main_v16_apply, val_main_v15_apply, val_main_cst_1_apply, val_main_cst_0_apply]
  simp only [Ideal.hostNegf_def, Ideal.negf_def, Ideal.hostDivf_def, Ideal.ofBits_def, Ideal.ofBits_zero_f32, zero_add]
  rw [Cert.Lib.VectorSum.sum_idx1]
  simp only [ref_term]
  rw [← Cert.Cox.firstTerms_all]

end Cert.Cox.Reference

end
-- ==== Proof.Bridge.lean ====
/-
  The two results are one number.

  The kernel ends at (Σᵢ term i) · (-(1/16384)) + penalty, the accumulator after the last tile being the sum of all
  16384 terms; the reference ends at -((Σᵢ term i) / 16384) + penalty. The penalty is the same expression of the same
  weights on both sides, and multiplying by -(1/16384) is dividing by 16384 and negating on every extended real, so
  no finiteness of the inputs is used anywhere.
-/
import proofs.«161742_j75368086110967_2_alg».proof.Proof.KernelRun
import proofs.«161742_j75368086110967_2_alg».proof.Proof.RefValue

noncomputable section

namespace Cert.Cox

open Idealize.ShloMosaic Idealize.ShloMosaic.TcCoe Idealize.SL.Sem Idealize.ShloMosaic.ValueIdx

/-- The reference's result, as a function of the kernel's argument arrays, is the kernel's result. -/
theorem result_agree (m : (ℓ : Loc Cert.KernelIdeal.nD Cert.KernelIdeal.τ Cert.KernelIdeal.sig) → Buf (Elt Ideal) ℓ)
    (c : Dev Cert.KernelIdeal.nD) :
    Cert.ReferenceIdeal.Read.val_main_v20 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = addf (F := Ideal) (shapeCast Cert.KernelIdeal.S_ (Kernel.outArr m c) Cert.KernelIdeal.Gen.shapeCasts_S1x1_S_)
          (Kernel.penalty (m ((c.tc : Thread Cert.KernelIdeal.nD Cert.KernelIdeal.τ).loc Cert.KernelIdeal.main_arg3))) := by
  funext i
  rw [Cert.ReferenceIdeal.Read.val_main_v20_apply, Reference.ref_mean]
  have hout : shapeCast Cert.KernelIdeal.S_ (Kernel.outArr m c : Cert.KernelIdeal.S1x1.Idx → EReal)
        Cert.KernelIdeal.Gen.shapeCasts_S1x1_S_ i
      = -(Ideal.div (firstTerms (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) 16384)
          (Ideal.ofBits .f32 0x46800000#32)) := by
    refine (shapeCast_apply (s := Cert.KernelIdeal.S1x1) (t := Cert.KernelIdeal.S_) _ Cert.KernelIdeal.Gen.shapeCasts_S1x1_S_ i
      (ix2 (0 : Fin 1) (0 : Fin 1)) (by
        rw [Shape.rowMajor_val_two]
        have h := (Shape.rowMajor Cert.KernelIdeal.S_ i).isLt
        have h1 : Cert.KernelIdeal.S_.numel = 1 := rfl
        show 0 * 1 + 0 = _
        omega)).trans ?_
    refine (Kernel.pay3_apply _).trans ?_
    rw [Kernel.accAfter_apply m c 63 _]
    exact mul_neg_inv_count _
  exact congrArg₂ (· + ·) hout.symm rfl

end Cert.Cox

end
-- ==== Proof.lean ====
/-
  A fused Cox partial-likelihood loss against its plain reference, over the extended reals.

  For 16384 samples with scores θ, durations d and event marks e, and a weight matrix W, both programs compute
    -(1/n) · Σᵢ (θᵢ - log Σⱼ [dⱼ ≥ dᵢ] · exp θⱼ) · eᵢ  +  0.01 · ‖W‖.
  The kernel walks the samples in 64 tiles of 256 rows. At a tile it compares the tile's durations with the whole
  duration row, keeps exp θⱼ where dⱼ ≥ dᵢ and the word of +0.0 elsewhere, sums along the lanes, and adds the tile's
  Σ (θᵢ - log riskᵢ) · eᵢ to a 1×1 accumulator that it reset at the first tile; at the last tile it multiplies the
  accumulator by the word of -(1/16384) and writes the product out; the host adds the penalty. The reference builds
  the whole 0/1 mask, multiplies it into the broadcast exp θ, sums, and takes minus the mean.

  The modules: the specification and the splitting of its sum into stretches of rows (Spec); the two constants and
  the law x · (-(1/n)) = -(x / n) (Scale); the body's stores read at an index (Payload) and what each of the body's
  three cases leaves behind (Pieces); the tile's blocks as entries of the arguments (Blocks); the accumulator after
  each tile as a partial sum, by induction on the tile (Accum); the output array, the host lines after the region
  and the kernel's run (KernelRun); the reference read at an index (RefValue); the two results compared (Bridge).
  The equality uses commutativity and associativity of addition, x · 1 = x, x · 0 = 0, and the law above, all of
  which hold on every extended real: the precondition is never opened.
-/
import proofs.«161742_j75368086110967_2_alg».proof.Defs
import proofs.«161742_j75368086110967_2_alg».proof.Proof.Gen.Kernel
import proofs.«161742_j75368086110967_2_alg».proof.Proof.Gen.Kernel.Skeleton
import proofs.«161742_j75368086110967_2_alg».proof.Proof.Gen.Kernel.Launch
import proofs.«161742_j75368086110967_2_alg».proof.Proof.Gen.Kernel.Points
import proofs.«161742_j75368086110967_2_alg».proof.Proof.Gen.Kernel.Frame
import proofs.«161742_j75368086110967_2_alg».proof.Proof.Gen.KernelIdeal
import proofs.«161742_j75368086110967_2_alg».proof.Proof.Gen.KernelIdeal.Skeleton
import proofs.«161742_j75368086110967_2_alg».proof.Proof.Gen.KernelIdeal.Launch
import proofs.«161742_j75368086110967_2_alg».proof.Proof.Gen.KernelIdeal.Points
import proofs.«161742_j75368086110967_2_alg».proof.Proof.Gen.KernelIdeal.Frame
import proofs.«161742_j75368086110967_2_alg».proof.Proof.Gen.ReferenceIdeal
import proofs.«161742_j75368086110967_2_alg».proof.Proof.Gen.Pre_finite_inputs
import proofs.«161742_j75368086110967_2_alg».proof.Proof.Gen.ReferenceIdeal.Run
import proofs.«161742_j75368086110967_2_alg».proof.Proof.Gen.ReferenceIdeal.Read
import proofs.«161742_j75368086110967_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end at the same extended real: the kernel at the scaled
    accumulator plus the penalty, the reference at minus the mean plus the penalty. -/
theorem algebraic : Cert.algebraic_KernelIdeal_ReferenceIdeal := by
  intro m ρ m' ρ' _ hagree
  refine ⟨fun c => addf (F := Ideal) (shapeCast Cert.KernelIdeal.S_ (Cert.Cox.Kernel.outArr m c) Cert.KernelIdeal.Gen.shapeCasts_S1x1_S_)
      (Cert.Cox.Kernel.penalty (m ((c.tc : Thread Cert.KernelIdeal.nD Cert.KernelIdeal.τ).loc Cert.KernelIdeal.main_arg3))),
    Cert.Cox.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq (F := Ideal) _ _ _ _).trans ?_
  rw [(hagree c).1, (hagree c).2.1, (hagree c).2.2.1, (hagree c).2.2.2]
  exact Cert.Cox.result_agree m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
